-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x128x32 : Shape := ⟨4, ![32, 128, 128, 32]⟩
abbrev S1x1x32x32 : Shape := ⟨4, ![1, 1, 32, 32]⟩
abbrev S_ : Shape := ⟨0, ![]⟩

class Facts : Prop where
  bcast_S_S32x128x128x32 : S_.BroadcastsInDim S32x128x128x32 (![] : Fin 0 → Fin S32x128x128x32.rank)
  reducesTo_S32x128x128x32_S_d0_1_2_3 : S32x128x128x32.ReducesTo [0, 1, 2, 3] S_
  h_S_ : 0 < S_.numel
  bcast_S_S1x1x32x32 : S_.BroadcastsInDim S1x1x32x32 (![] : Fin 0 → Fin S1x1x32x32.rank)
  reducesTo_S1x1x32x32_S_d0_1_2_3 : S1x1x32x32.ReducesTo [0, 1, 2, 3] S_

variable [Facts]

def fn {F : FTy → Type} [FloatOps F] (main_arg0 : FVec F S32x128x128x32 .f32) (main_arg1 : FVec F S1x1x32x32 .f32) : IVec S_ 1 :=
  let main_v0 : FVec F S32x128x128x32 .f32 := Host.absf main_arg0
  let main_cst : FVec F S_ .f32 := constant S_ .f32 0x7F800000#32
  let main_v1 : FVec F S32x128x128x32 .f32 := broadcastInDim S32x128x128x32 ![] bcast_S_S32x128x128x32 main_cst
  let main_v2 : IVec S32x128x128x32 1 := cmpf .olt main_v0 main_v1
  let main_c : IVec S_ 1 := constantI S_ 1 1#1
  let main_v3 : IVec S_ 1 := (fun x v => Host.reduce IntOp.andi x v reducesTo_S32x128x128x32_S_d0_1_2_3 h_S_) main_v2 main_c
  let main_v4 : FVec F S1x1x32x32 .f32 := Host.absf main_arg1
  let main_cst_0 : FVec F S_ .f32 := constant S_ .f32 0x7F800000#32
  let main_v5 : FVec F S1x1x32x32 .f32 := broadcastInDim S1x1x32x32 ![] bcast_S_S1x1x32x32 main_cst_0
  let main_v6 : IVec S1x1x32x32 1 := cmpf .olt main_v4 main_v5
  let main_c_1 : IVec S_ 1 := constantI S_ 1 1#1
  let main_v7 : IVec S_ 1 := (fun x v => Host.reduce IntOp.andi x v reducesTo_S1x1x32x32_S_d0_1_2_3 h_S_) main_v6 main_c_1
  let main_v8 : IVec S_ 1 := andi main_v3 main_v7
  main_v8
-- ==== Kernel.lean ====
abbrev S32x128x128x32 : Shape := ⟨4, ![32, 128, 128, 32]⟩
abbrev S1x1x32x32 : Shape := ⟨4, ![1, 1, 32, 32]⟩
abbrev S_ : Shape := ⟨0, ![]⟩
abbrev S1x1x32 : Shape := ⟨3, ![1, 1, 32]⟩
abbrev S1x1x1x32 : Shape := ⟨4, ![1, 1, 1, 32]⟩
abbrev S32x32 : Shape := ⟨2, ![32, 32]⟩
abbrev S524288x32 : Shape := ⟨2, ![524288, 32]⟩
abbrev S16384x32 : Shape := ⟨2, ![16384, 32]⟩
abbrev S16384 : Shape := ⟨1, ![16384]⟩
abbrev S16384x1 : Shape := ⟨2, ![16384, 1]⟩

abbrev nBuf : Space → Nat
  | .hbm => 22
  | .vmem => 5
  | .smem => 0
  | _ => 0

abbrev bufTy : (tb : Table) → Fin (tcTables nBuf tb) → BufTy
  | .hbm, ⟨0, _⟩ => ⟨S32x128x128x32, .f32⟩
  | .hbm, ⟨1, _⟩ => ⟨S1x1x32x32, .f32⟩
  | .hbm, ⟨2, _⟩ => ⟨S_, .f32⟩
  | .hbm, ⟨3, _⟩ => ⟨S1x1x32, .f32⟩
  | .hbm, ⟨4, _⟩ => ⟨S_, .f32⟩
  | .hbm, ⟨5, _⟩ => ⟨S1x1x32, .f32⟩
  | .hbm, ⟨6, _⟩ => ⟨S1x1x32, .f32⟩
  | .hbm, ⟨7, _⟩ => ⟨S1x1x1x32, .f32⟩
  | .hbm, ⟨8, _⟩ => ⟨S1x1x32x32, .f32⟩
  | .hbm, ⟨9, _⟩ => ⟨S1x1x32x32, .f32⟩
  | .hbm, ⟨10, _⟩ => ⟨S1x1x32x32, .f32⟩
  | .hbm, ⟨11, _⟩ => ⟨S_, .f32⟩
  | .hbm, ⟨12, _⟩ => ⟨S1x1x32, .f32⟩
  | .hbm, ⟨13, _⟩ => ⟨S1x1x1x32, .f32⟩
  | .hbm, ⟨14, _⟩ => ⟨S1x1x1x32, .f32⟩
  | .hbm, ⟨15, _⟩ => ⟨S1x1x32x32, .f32⟩
  | .hbm, ⟨16, _⟩ => ⟨S1x1x32x32, .f32⟩
  | .hbm, ⟨17, _⟩ => ⟨S32x32, .f32⟩
  | .hbm, ⟨18, _⟩ => ⟨S32x32, .f32⟩
  | .hbm, ⟨19, _⟩ => ⟨S524288x32, .f32⟩
  | .hbm, ⟨20, _⟩ => ⟨S524288x32, .f32⟩
  | .hbm, ⟨21, _⟩ => ⟨S32x128x128x32, .f32⟩
  | .local _ .vmem, ⟨0, _⟩ => ⟨S16384x32, .f32⟩
  | .local _ .vmem, ⟨1, _⟩ => ⟨S16384x32, .f32⟩
  | .local _ .vmem, ⟨2, _⟩ => ⟨S32x32, .f32⟩
  | .local _ .vmem, ⟨3, _⟩ => ⟨S16384x32, .f32⟩
  | .local _ .vmem, ⟨4, _⟩ => ⟨S16384x32, .f32⟩
  | _, _ => ⟨S32x128x128x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S1x1x32x32_S1x1x32_d2 : S1x1x32x32.ReducesTo [2] S1x1x32
  h_S_ : 0 < S_.numel
  bcast_S_S1x1x32 : S_.BroadcastsInDim S1x1x32 (![] : Fin 0 → Fin S1x1x32.rank)
  bcast_S1x1x32_S1x1x1x32_0_1_3 : S1x1x32.BroadcastsInDim S1x1x1x32 (![0, 1, 3] : Fin 3 → Fin S1x1x1x32.rank)
  bcast_S1x1x1x32_S1x1x32x32_0_1_2_3 : S1x1x1x32.BroadcastsInDim S1x1x32x32 (![0, 1, 2, 3] : Fin 4 → Fin S1x1x32x32.rank)
  shapeCasts_S1x1x32x32_S32x32 : S1x1x32x32.ShapeCasts S32x32
  shapeCasts_S32x128x128x32_S524288x32 : S32x128x128x32.ShapeCasts S524288x32
  inb_S16384x32_S16384x32_0_0 : ∀ a, (![0, 0] : Fin 2 → Nat) a + S16384x32.size a ≤ S16384x32.size a
  h_S16384x32 : 0 < S16384x32.numel
  shapeCasts_S16384x32_S16384x32 : S16384x32.ShapeCasts S16384x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  reduces_S16384x32_S16384 : S16384x32.Reduces [1] S16384
  shapeCasts_S16384_S16384x1 : S16384.ShapeCasts S16384x1
  broadcasts_S16384x1_S16384x32 : S16384x1.Broadcasts S16384x32
  bitsLt_bf16_f32 : FTy.bits .bf16 < FTy.bits .f32
  shapeCasts_S524288x32_S32x128x128x32 : S524288x32.ShapeCasts S32x128x128x32
  dot_S16384x32_S32x32_S16384x32_1_0_0_1_n_n_wf : DotDims.WF S16384x32 S32x32 S16384x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x32.size a ≤ S524288x32.size a
  hwx0_0 : ∀ i : grid0.Coords, EltTy.bits .f32 = 32 ∨ (Rect.block (s := S524288x32) S16384x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x32.size a ≤ S524288x32.size a
  hwx0_2 : ∀ i : grid0.Coords, EltTy.bits .f32 = 32 ∨ (Rect.block (s := S524288x32) S16384x32.size (cc0_transform_2 i) (hinb0_2 i)).WholeWords (EltTy.packing .f32)

variable [Facts₀]

def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf

abbrev win0_0 : Pipeline.Window sig grid0 :=
  Pipeline.Window.ofSpec (Memref.whole main_v3) S16384x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S16384x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x128x128x32 : Shape := ⟨4, ![32, 128, 128, 32]⟩
abbrev S1x1x32x32 : Shape := ⟨4, ![1, 1, 32, 32]⟩
abbrev S_ : Shape := ⟨0, ![]⟩
abbrev S1x1x32 : Shape := ⟨3, ![1, 1, 32]⟩
abbrev S1x1x1x32 : Shape := ⟨4, ![1, 1, 1, 32]⟩
abbrev S32x32 : Shape := ⟨2, ![32, 32]⟩
abbrev S32x128x128 : Shape := ⟨3, ![32, 128, 128]⟩
abbrev S32x128x128x1 : Shape := ⟨4, ![32, 128, 128, 1]⟩

abbrev nBuf : Space → Nat
  | .hbm => 29
  | .vmem => 0
  | .smem => 0
  | _ => 0

abbrev bufTy : (tb : Table) → Fin (tcTables nBuf tb) → BufTy
  | .hbm, ⟨0, _⟩ => ⟨S32x128x128x32, .f32⟩
  | .hbm, ⟨1, _⟩ => ⟨S1x1x32x32, .f32⟩
  | .hbm, ⟨2, _⟩ => ⟨S_, .f32⟩
  | .hbm, ⟨3, _⟩ => ⟨S1x1x32, .f32⟩
  | .hbm, ⟨4, _⟩ => ⟨S_, .f32⟩
  | .hbm, ⟨5, _⟩ => ⟨S1x1x32, .f32⟩
  | .hbm, ⟨6, _⟩ => ⟨S1x1x32, .f32⟩
  | .hbm, ⟨7, _⟩ => ⟨S1x1x1x32, .f32⟩
  | .hbm, ⟨8, _⟩ => ⟨S1x1x32x32, .f32⟩
  | .hbm, ⟨9, _⟩ => ⟨S1x1x32x32, .f32⟩
  | .hbm, ⟨10, _⟩ => ⟨S1x1x32x32, .f32⟩
  | .hbm, ⟨11, _⟩ => ⟨S_, .f32⟩
  | .hbm, ⟨12, _⟩ => ⟨S1x1x32, .f32⟩
  | .hbm, ⟨13, _⟩ => ⟨S1x1x1x32, .f32⟩
  | .hbm, ⟨14, _⟩ => ⟨S1x1x1x32, .f32⟩
  | .hbm, ⟨15, _⟩ => ⟨S1x1x32x32, .f32⟩
  | .hbm, ⟨16, _⟩ => ⟨S1x1x32x32, .f32⟩
  | .hbm, ⟨17, _⟩ => ⟨S32x32, .f32⟩
  | .hbm, ⟨18, _⟩ => ⟨S_, .f32⟩
  | .hbm, ⟨19, _⟩ => ⟨S32x128x128, .f32⟩
  | .hbm, ⟨20, _⟩ => ⟨S32x128x128x1, .f32⟩
  | .hbm, ⟨21, _⟩ => ⟨S32x128x128x32, .f32⟩
  | .hbm, ⟨22, _⟩ => ⟨S32x128x128x32, .f32⟩
  | .hbm, ⟨23, _⟩ => ⟨S32x128x128x32, .f32⟩
  | .hbm, ⟨24, _⟩ => ⟨S32x32, .f32⟩
  | .hbm, ⟨25, _⟩ => ⟨S32x128x128x32, .f32⟩
  | .hbm, ⟨26, _⟩ => ⟨S32x128x128x32, .f32⟩
  | .hbm, ⟨27, _⟩ => ⟨S32x128x128x32, .f32⟩
  | .hbm, ⟨28, _⟩ => ⟨S32x128x128x32, .f32⟩
  | _, _ => ⟨S32x128x128x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩

abbrev nD : Nat := 1
abbrev τ : Topo := Topo.v7x

variable {F : FTy → Type} [FloatOps F]

class Facts₀ : Prop where
  reducesTo_S1x1x32x32_S1x1x32_d2 : S1x1x32x32.ReducesTo [2] S1x1x32
  h_S_ : 0 < S_.numel
  bcast_S_S1x1x32 : S_.BroadcastsInDim S1x1x32 (![] : Fin 0 → Fin S1x1x32.rank)
  bcast_S1x1x32_S1x1x1x32_0_1_3 : S1x1x32.BroadcastsInDim S1x1x1x32 (![0, 1, 3] : Fin 3 → Fin S1x1x1x32.rank)
  bcast_S1x1x1x32_S1x1x32x32_0_1_2_3 : S1x1x1x32.BroadcastsInDim S1x1x32x32 (![0, 1, 2, 3] : Fin 4 → Fin S1x1x32x32.rank)
  shapeCasts_S1x1x32x32_S32x32 : S1x1x32x32.ShapeCasts S32x32
  reducesTo_S32x128x128x32_S32x128x128_d3 : S32x128x128x32.ReducesTo [3] S32x128x128
  bcast_S32x128x128_S32x128x128x1_0_1_2 : S32x128x128.BroadcastsInDim S32x128x128x1 (![0, 1, 2] : Fin 3 → Fin S32x128x128x1.rank)
  bcast_S32x128x128x1_S32x128x128x32_0_1_2_3 : S32x128x128x1.BroadcastsInDim S32x128x128x32 (![0, 1, 2, 3] : Fin 4 → Fin S32x128x128x32.rank)
  dot_S32x128x128x32_S32x32_S32x128x128x32_3_0_012_1_n_n_wf : DotDims.WF S32x128x128x32 S32x32 S32x128x128x32 [3] [0] [0, 1, 2] [1] [] []

variable [Facts₀]

def dot_S32x128x128x32_S32x32_S32x128x128x32_3_0_012_1_n_n : DotDims S32x128x128x32 S32x32 S32x128x128x32 where
  lhsContracting := [3]
  rhsContracting := [0]
  lhsNonContracting := [0, 1, 2]
  rhsNonContracting := [1]
  lhsBatch := []
  rhsBatch := []
  wf := dot_S32x128x128x32_S32x32_S32x128x128x32_3_0_012_1_n_n_wf

class Facts : Prop extends Facts₀ where

variable [Facts]
-- ==== Proof.Spec.lean ====
/-
  The function both programs compute, stated once over plain index types and extended reals.

  For a row `r` of 32 extended reals and a column `w` of 32 weights, one output entry is
      max r + log (∑ k, exp (r k - max r) * w k)
  — a log-sum-exp of the row against the weights, shifted by the row's maximum. The maximum is the fold of
  `max` over the 32 entries started from the f32 pattern of −∞, kept as a pattern: it is the same word on
  both sides and is never evaluated.

  `logConv X W` applies this to every row of a [524288, 32] array `X` and every column of a [32, 32] weight
  matrix `W`.  `weights a` is the weight matrix both programs build from the [1, 1, 32, 32] parameter array:
  the exponential of its log-softmax over the input-channel axis (axis 2), viewed as [32, 32].  `result x a` is the
  whole function: the data `x` viewed as rows, `logConv` against `weights a`, viewed back as [32, 128, 128, 32].
-/
import Idealize.ShloMosaic.PureOps.Ideal
import Idealize.ShloMosaic.Lib.ValueIdx

noncomputable section

namespace Cert.LogConv

open Idealize.ShloMosaic Idealize.ShloMosaic.ValueIdx

/-- The data viewed as rows: [524288, 32]. -/
abbrev Rows : Shape := ⟨2, ![524288, 32]⟩
/-- The weight matrix: [32, 32] (input channel, output channel). -/
abbrev Wts : Shape := ⟨2, ![32, 32]⟩
/-- The data as given: [32, 128, 128, 32]. -/
abbrev Img : Shape := ⟨4, ![32, 128, 128, 32]⟩
/-- The parameter array as given: [1, 1, 32, 32]. -/
abbrev Par : Shape := ⟨4, ![1, 1, 32, 32]⟩

/-- The maximum of a row of 32 entries, folded from the f32 pattern of −∞. -/
def rowMax (r : Fin 32 → EReal) : EReal :=
  (Finset.univ : Finset (Fin 32)).fold max (Ideal.ofBits .f32 0xFF800000#32) r

/-- One output entry: the row `r` against the weight column `w`. -/
def entry (r w : Fin 32 → EReal) : EReal :=
  rowMax r + Ideal.log (∑ k : Fin 32, Ideal.exp (r k - rowMax r) * w k)

/-- Every row of `X` against every column of `W`. -/
def logConv (X : Rows.Idx → EReal) (W : Wts.Idx → EReal) : Rows.Idx → EReal :=
  fun j => entry (fun k => X (ix2 (j 0) k)) (fun k => W (ix2 k (j 1)))

/-! ## The weight matrix -/

/-- Rank 0, and the two intermediate shapes of a reduction over axis 2 of the parameter array. -/
abbrev Sc : Shape := ⟨0, ![]⟩
abbrev Par3 : Shape := ⟨3, ![1, 1, 32]⟩
abbrev Par31 : Shape := ⟨4, ![1, 1, 1, 32]⟩

/-- A value per output channel, repeated along the input-channel axis. -/
def alongChannels (v : FVec Ideal Par31 .f32) : FVec Ideal Par .f32 :=
  broadcastInDim Par (![0, 1, 2, 3] : Fin 4 → Fin Par.rank) (by decide) v

/-- A [1, 1, 32] array with a unit axis inserted at position 2. -/
def keepDims (v : FVec Ideal Par3 .f32) : FVec Ideal Par31 .f32 :=
  broadcastInDim Par31 (![0, 1, 3] : Fin 3 → Fin Par31.rank) (by decide) v

/-- The parameter array minus its maximum over the input-channel axis. -/
def shifted (a : FVec Ideal Par .f32) : FVec Ideal Par .f32 :=
  subf a (alongChannels (keepDims (maximumf
    (broadcastInDim Par3 (![] : Fin 0 → Fin Par3.rank) (by decide) (constant Sc .f32 0xFF800000#32))
    (Host.reduce FloatOps.maximumf a (constant Sc .f32 0xFF800000#32) (by decide : Par.ReducesTo [2] Par3) (by decide)))))

/-- The log-softmax of the parameter array over the input-channel axis. -/
def logSoftmax (a : FVec Ideal Par .f32) : FVec Ideal Par .f32 :=
  subf (shifted a) (alongChannels (Host.log (keepDims
    (Host.reduceAdd (Host.exp (shifted a)) (constant Sc .f32 0x00000000#32) (by decide : Par.ReducesTo [2] Par3) (by decide)))))

/-- The weight matrix: the exponential of the log-softmax, viewed as [32, 32]. -/
def weights (a : FVec Ideal Par .f32) : FVec Ideal Wts .f32 :=
  Host.exp (shapeCast Wts (logSoftmax a) (by decide))

/-! ## The result -/

/-- What both programs return: the data viewed as rows, every row against every column of the weight matrix, viewed
    back as [32, 128, 128, 32]. -/
def result (x : FVec Ideal Img .f32) (a : FVec Ideal Par .f32) : FVec Ideal Img .f32 :=
  shapeCast Img (logConv (shapeCast Rows x (by decide)) (weights a)) (by decide)

end Cert.LogConv

end
-- ==== Proof.Payload.lean ====
/-
  What the kernel body stores, read at one entry of a block.

  For a block `x` of 16384 rows of the data and the weight matrix `w`, the body computes, row by row,
  the row's maximum, the exponentials of the row shifted by it, their products with the weights summed
  over the 32 input channels, and the logarithm of that sum shifted back.  At the extended reals the two
  changes of float format in front of the matrix product are the identity, and the matrix product into a
  zero accumulator is the plain sum over the contracted axis; so entry (p, q) of what is stored is
  `entry` of row p of `x` and column q of `w`.
-/
import proofs.«157949_j1700807049807_2_alg».proof.Proof.Gen.KernelIdeal.Skeleton
import proofs.«157949_j1700807049807_2_alg».proof.Proof.Spec
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx Cert.LogConv

/-- The lane reduction of a block to one maximum per row, read at row `p`: the fold of `max` over that row. -/
theorem rowMax_at (x : FVec Ideal S16384x32 .f32) (h : S16384x32.Reduces [1] S16384) (hφ : FKind.Formats .f32)
    (hacc : (0xFF800000#32 : BitVec FTy.f32.bits) = FKind.maximumf.neutral .f32 hφ) (p : Fin 16384) :
    multiReduction .maximumf [1] S16384 x 0xFF800000#32 h hφ hacc (ix1 p) = rowMax (fun k => x (ix2 p k)) := by
  rw [Ideal.multiReduction_maximumf_single]
  have e : (x ∘ h.lift (ix1 p)) = fun k : Fin 32 => x (ix2 p k) :=
    funext fun k => congrArg x (funext fun a => Fin.ext (by match a with | ⟨0, _⟩ => rfl | ⟨1, _⟩ => rfl))
  rw [e]
  rfl

/-- A value per row, viewed as a column and repeated along the row, read at (p, q): the value of row `p`. -/
theorem column_at (v : FVec Ideal S16384 .f32) (h1 : S16384.ShapeCasts S16384x1) (h2 : S16384x1.Broadcasts S16384x32)
    (p : Fin 16384) (q : Fin 32) :
    broadcastTo S16384x32 (shapeCast S16384x1 v h1) h2 (ix2 p q) = v (ix1 p) := by
  rw [broadcastTo_apply _ h2 (ix2 p q) (ix2 p ⟨0, Nat.one_pos⟩) (fun a => by
    match a with
    | ⟨0, _⟩ => show p.val = if (16384 : Nat) = 1 then 0 else p.val; rw [if_neg (by decide)]
    | ⟨1, _⟩ => show 0 = if (1 : Nat) = 1 then 0 else q.val; rw [if_pos rfl])]
  exact shapeCast_apply v h1 _ (ix1 p) (by
    rw [Shape.rowMajor_val_one, Shape.rowMajor_val_two]
    show p.val = p.val * 1 + 0
    omega)

local notation "D" => dot_S16384x32_S32x32_S16384x32_1_0_0_1_n_n

theorem lhs_row (i : S16384x32.Idx) (k : (D).contr.Idx) : ((D).lhsIdx i k 0).val = (i 0).val := by
  unfold DotDims.lhsIdx
  rw [dif_neg (show ¬(0 : Fin S16384x32.rank) ∈ (D).lhsBatch by decide), dif_pos (show (0 : Fin S16384x32.rank) ∈ (D).lhsNonContracting by decide)]
  rfl
theorem lhs_contracted (i : S16384x32.Idx) (k : (D).contr.Idx) : ((D).lhsIdx i k 1).val = (k ⟨0, by decide⟩).val :=
  (D).lhsIdx_val_of_single rfl i k
theorem rhs_contracted (i : S16384x32.Idx) (k : (D).contr.Idx) : ((D).rhsIdx i k 0).val = (k ⟨0, by decide⟩).val :=
  (D).rhsIdx_val_of_single rfl i k
theorem rhs_column (i : S16384x32.Idx) (k : (D).contr.Idx) : ((D).rhsIdx i k 1).val = (i 1).val := by
  unfold DotDims.rhsIdx
  rw [dif_neg (show ¬(1 : Fin S32x32.rank) ∈ (D).rhsBatch by decide), dif_pos (show (1 : Fin S32x32.rank) ∈ (D).rhsNonContracting by decide)]
  rfl

/-- The matrix product into a zero accumulator, read at (p, q): row `p` of the left operand against column `q` of
    the right, summed over the 32 contracted coordinates. -/
theorem matmul_at {φ₁ φ₂ : FTy} (l : FVec Ideal S16384x32 φ₁) (r : FVec Ideal S32x32 φ₂) (p : Fin 16384) (q : Fin 32) :
    matmul (D) none l r (constant S16384x32 .f32 0x00000000#32) (ix2 p q) = ∑ k : Fin 32, l (ix2 p k) * r (ix2 k q) := by
  simp only [matmul]
  rw [Ideal.matmul_constant_zero_apply, ← Equiv.sum_comp (contrEquiv1 (D) 32 rfl rfl).symm]
  refine Finset.sum_congr rfl fun k _ => ?_
  have hk := contrEquiv1_symm_val (D) 32 rfl rfl k
  have el : (D).lhsIdx (ix2 p q) ((contrEquiv1 (D) 32 rfl rfl).symm k) = ix2 p k := funext fun a => Fin.ext (by
    match a with
    | ⟨0, _⟩ => exact lhs_row _ _
    | ⟨1, _⟩ => exact (lhs_contracted _ _).trans hk)
  have er : (D).rhsIdx (ix2 p q) ((contrEquiv1 (D) 32 rfl rfl).symm k) = ix2 k q := funext fun a => Fin.ext (by
    match a with
    | ⟨0, _⟩ => exact (rhs_contracted _ _).trans hk
    | ⟨1, _⟩ => exact rhs_column _ _)
  rw [el, er]

/-- Entry (p, q) of what the body stores is `entry` of row `p` of the data block and column `q` of the weights. -/
theorem pay_apply (x : Vec Ideal S16384x32 .f32) (w : Vec Ideal S32x32 .f32) (p : Fin 16384) (q : Fin 32) :
    k0_pay1 (F := Ideal) x w (ix2 p q) = entry (fun k => x (ix2 p k)) (fun k => w (ix2 k q)) := by
  -- the row maximum, as a column repeated along the row, at any entry of row `r`
  have hm : ∀ (r : Fin 16384) (c : Fin 32),
      broadcastTo S16384x32 (shapeCast S16384x1
        (multiReduction (F := Ideal) .maximumf [1] S16384 x 0xFF800000#32 reduces_S16384x32_S16384 (.inl rfl) rfl)
        shapeCasts_S16384_S16384x1) broadcasts_S16384x1_S16384x32 (ix2 r c) = rowMax (fun k => x (ix2 r k)) :=
    fun r c => by exact (column_at _ _ _ r c).trans (rowMax_at x _ _ _ r)
  unfold k0_pay1
  simp only [shapeCast_self]
  rw [addf_apply]
  unfold entry
  refine congrArg₂ (· + ·) (hm p q) ?_
  show Ideal.log (matmul (F := Ideal) dot_S16384x32_S32x32_S16384x32_1_0_0_1_n_n none _ _ _ (ix2 p q)) = _
  refine congrArg Ideal.log ((matmul_at _ _ p q).trans (Finset.sum_congr rfl fun k _ => ?_))
  exact congrArg (fun z => Ideal.exp (x (ix2 p k) - z) * w (ix2 k q)) (hm p k)

end Cert.KernelIdeal.Hand

end
-- ==== Proof.Blocks.lean ====
/-
  From blocks to the array.

  The grid has 32 points.  At point `t` the kernel body is given rows 16384·t … 16384·t + 16383 of the
  data (viewed as [524288, 32]) and the whole weight matrix, and what it stores is written back to the same
  rows of the result.  Entry (p, q) of what it stores is `entry` of row p of its data block and column q of
  the weights, which is `logConv` of the whole data array and the weights at row 16384·t + p, column q.  The 32
  row blocks tile the result (row r lies in block r / 16384), so after the last point the result array is
  `logConv` of the data and the weights as the kernel finds them.
-/
import proofs.«157949_j1700807049807_2_alg».proof.Proof.Gen.KernelIdeal.Frame
import proofs.«157949_j1700807049807_2_alg».proof.Proof.Payload
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx Cert.LogConv
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the data's and the result's block at point `t` is row block `t`, and the
    weights' block is always the whole matrix. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of what the body stores, when its data block holds rows of `X` starting at row `r - p` and its weight
    block holds `W`: the entry of `logConv X W` at row `r`. -/
theorem block_entry (X : Rows.Idx → EReal) (W : Wts.Idx → EReal) (x : Vec Ideal S16384x32 .f32) (w : Vec Ideal S32x32 .f32)
    (p : Fin 16384) (q : Fin 32) (r : Fin 524288)
    (hx : ∀ k : Fin 32, x (ix2 p k) = X (ix2 r k)) (hw : ∀ k : Fin 32, w (ix2 k q) = W (ix2 k q)) :
    k0_pay1 (F := Ideal) x w (ix2 p q) = logConv X W (ix2 r q) := by
  rw [pay_apply]
  show entry _ _ = entry (fun k => X (ix2 r k)) (fun k => W (ix2 k q))
  rw [funext hx, funext hw]

/-- What point `t` writes back is block `t` of `logConv` of the data and the weights as the kernel finds them. -/
theorem flushed_eq (c : Dev nD) (t : Fin cfg0.N) :
    (dats m 0 c).flushed 2 t
      = ((cfg0.win 2).blk t).view.read (Elt Ideal) (logConv (V m c main_v3 : S524288x32.Idx → EReal) (V m c main_v2 : S32x32.Idx → EReal)) := by
  show (cfg0.win 2).cut (grid0.coords t) ((dats m 0 c).after 2 t) = _
  rw [after0_2]
  unfold out0_2
  rw [View.canon_unit_zero zero_offsets]
  simp only [View.ld_unit_zero (S := S16384x32) zero_offsets, View.ld_unit_zero (S := S32x32) zero_offsets]
  obtain ⟨e0, e1, e2, e3, e4, e5⟩ := index_facts t
  have ht : t.val < 32 := lt_of_lt_of_eq t.isLt (show cfg0.N = 32 from N_0)
  funext j
  obtain ⟨p, q, rfl⟩ : ∃ (p : Fin 16384) (q : Fin 32), j = ix2 p q := ⟨j 0, j 1, eq_ix2 j⟩
  show k0_pay1 (F := Ideal) (iblk m c 0 t) (iblk m c 1 t) (ix2 p q)
    = logConv (V m c main_v3 : S524288x32.Idx → EReal) (V m c main_v2 : S32x32.Idx → EReal) (((cfg0.win 2).blk t).view.emb (ix2 p q))
  have hi : ((cfg0.win 2).blk t).view.emb (ix2 p q) = (ix2 (⟨t.val * 16384 + p.val, by omega⟩ : Fin 524288) q : S524288x32.Idx) := by
    funext a; apply Fin.ext
    match a with
    | ⟨0, _⟩ => show win0_2.index t (0 : Fin 2) * 16384 + 1 * p.val = t.val * 16384 + p.val; rw [e4]; omega
    | ⟨1, _⟩ => show win0_2.index t (1 : Fin 2) * 32 + 1 * q.val = q.val; rw [e5]; omega
  rw [hi]
  refine block_entry _ _ _ _ p q _ (fun k => ?_) (fun k => ?_)
  · show V m c main_v3 (((cfg0.win 0).blk t).view.emb (ix2 p k)) = _
    refine congrArg (V m c main_v3) (funext fun a => Fin.ext ?_)
    match a with
    | ⟨0, _⟩ => show win0_0.index t (0 : Fin 2) * 16384 + 1 * p.val = t.val * 16384 + p.val; rw [e0]; omega
    | ⟨1, _⟩ => show win0_0.index t (1 : Fin 2) * 32 + 1 * k.val = k.val; rw [e1]; omega
  · show V m c main_v2 (((cfg0.win 1).blk t).view.emb (ix2 k q)) = _
    refine congrArg (V m c main_v2) (funext fun a => Fin.ext ?_)
    match a with
    | ⟨0, _⟩ => show win0_1.index t (0 : Fin 2) * 32 + 1 * k.val = k.val; rw [e2]; omega
    | ⟨1, _⟩ => show win0_1.index t (1 : Fin 2) * 32 + 1 * q.val = q.val; rw [e3]; omega

/-- An index of the result is in point `t`'s block iff each coordinate is in the block's range on its axis. -/
theorem mem_blk (t : Fin cfg0.N) (i : S524288x32.Idx) :
    i ∈ ((cfg0.win 2).blk t).view.set ↔ ∀ a : Fin 2, win0_2.index t a * S16384x32.size a ≤ (i a).val ∧ (i a).val < win0_2.index t a * S16384x32.size a + S16384x32.size a := by
  show i ∈ ((View.whole main_v4).slice (win0_2.rect t)).set ↔ _
  rw [View.set_slice_whole, Rect.mem_set_unit]
  exact Iff.rfl

/-- Every row of the result lies in some point's block: row `r` in that of point `r / 16384`. -/
theorem covered (i : S524288x32.Idx) :
    ∃ t : Fin cfg0.N, (cfg0.win 2).flush t = true ∧ i ∈ ((cfg0.win 2).blk t).view.set := by
  have h0 : (i 0).val < 524288 := (i 0).isLt
  have h1 : (i 1).val < 32 := (i 1).isLt
  have hN : cfg0.N = 32 := N_0
  let t : Fin cfg0.N := ⟨(i 0).val / 16384, by rw [hN]; omega⟩
  obtain ⟨-, -, -, -, e4, e5⟩ := index_facts t
  have tv : t.val = (i 0).val / 16384 := rfl
  refine ⟨t, flush0_2 t, ?_⟩
  rw [mem_blk]
  intro a
  match a with
  | ⟨0, _⟩ => show win0_2.index t (0 : Fin 2) * 16384 ≤ (i 0).val ∧ (i 0).val < win0_2.index t (0 : Fin 2) * 16384 + 16384; rw [e4, tv]; omega
  | ⟨1, _⟩ => show win0_2.index t (1 : Fin 2) * 32 ≤ (i 1).val ∧ (i 1).val < win0_2.index t (1 : Fin 2) * 32 + 32; rw [e5]; omega

/-- The result array after the last point. -/
theorem final (c : Dev nD) :
    (dats m 0 c).arrAt 2 cfg0.N = logConv (V m c main_v3 : S524288x32.Idx → EReal) (V m c main_v2 : S32x32.Idx → EReal) :=
  (dats m 0 c).arrAt_eq_of_cover 2 (logConv (V m c main_v3 : S524288x32.Idx → EReal) (V m c main_v2 : S32x32.Idx → EReal))
    (fun t _ => flushed_eq m c t) covered

end Cert.KernelIdeal.Hand

end
-- ==== Proof.KernelRun.lean ====
/-
  The kernel's run, read: the result array is `result` of the two argument arrays.

  Before the grid the program reshapes the data to rows and builds the weight matrix from the parameter array
  (the exponential of its log-softmax over the input-channel axis); after the grid it reshapes the row array
  back.  With the row array after the last grid point known (`final`), the result is the reshaped `logConv` of the
  reshaped data and the weights.
-/
import proofs.«157949_j1700807049807_2_alg».proof.Proof.Gen.KernelIdeal.Frame
import proofs.«157949_j1700807049807_2_alg».proof.Proof.Blocks
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.StableHlo Cert.LogConv
open Idealize.ShloMosaic.Pipeline (Dat)

variable (m : (ℓ : Loc nD τ sig) → Buf (Elt Ideal) ℓ) (ρ : Dev nD → PrngReg)

/-- The data as the grid finds it: the argument viewed as rows. -/
theorem V_rows (c : Dev nD) :
    (V m c main_v3 : S524288x32.Idx → EReal)
      = shapeCast Rows (m ((c : Thread nD τ).loc main_arg0) : S32x128x128x32.Idx → EReal) shapeCasts_S32x128x128x32_S524288x32 := by
  dsimp only [V, V0]
  simp only [hostOps0, hostOps0_1, List.flatten_cons, List.flatten_nil, List.append_nil, List.cons_append, List.nil_append]
  after_results
  rfl

/-- The weights as the grid finds them: `weights` of the parameter argument. -/
theorem V_weights (c : Dev nD) :
    (V m c main_v2 : S32x32.Idx → EReal) = weights (m ((c : Thread nD τ).loc main_arg1) : S1x1x32x32.Idx → EReal) := by
  dsimp only [V, V0]
  simp only [hostOps0, hostOps0_1, List.flatten_cons, List.flatten_nil, List.append_nil, List.cons_append, List.nil_append]
  after_results
  rfl

/-- The result array after the reshape that follows the grid. -/
theorem tail_value (c : Dev nD) :
    Pipeline.afterTail₀ cfgs (dats m) 0 (V0 m) [hostOps1] c main_v5
      = result (m ((c : Thread nD τ).loc main_arg0) : S32x128x128x32.Idx → EReal) (m ((c : Thread nD τ).loc main_arg1) : S1x1x32x32.Idx → EReal) := by
  unfold Pipeline.afterTail₀
  show StableHlo.after hostOps1 _ (Proc.devRef .tc main_v5) = _
  after_results
  unfold result
  rw [← V_rows m c, ← V_weights m c]
  exact congrArg (fun z : S524288x32.Idx → EReal => shapeCast Img z shapeCasts_S524288x32_S32x128x128x32)
    ((Pipeline.withArrays_arr spec0 launch0.win.arr_inj c _ _ 2).trans (final m c))

/-- Every weakly fair execution of the kernel program terminates with the result array at `result` of the arguments,
    and the arguments unchanged. -/
theorem run : θ_run defs (onTc (τ := τ) (main (F := Ideal))) ⟨m, fun _ => 0, ρ⟩ fun r => ∀ c : Dev nD,
      r.2.mem ((c.tc : Thread nD τ).loc main_v5)
        = result (m ((c : Thread nD τ).loc main_arg0) : S32x128x128x32.Idx → EReal) (m ((c : Thread nD τ).loc main_arg1) : S1x1x32x32.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v5 (Pipeline.mem_restRefs_of main_v5 (by decide) (by decide))).trans (tail_value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Hand

end
-- ==== Proof.Reference.lean ====
/-
  The reference's result is `result` of its two arguments.

  The reference takes the maximum over the last axis of the [32, 128, 128, 32] data, subtracts it, exponentiates,
  contracts the last axis with the weight matrix (the exponential of the parameter array's log-softmax viewed as
  [32, 32]), takes the logarithm and adds the maximum back.  Read at an index (a, b, c, d) this is `entry` of the row
  (a, b, c, ·) of the data and column d of the weights; and that row is row (a·128 + b)·128 + c of the data viewed as
  [524288, 32], which is where the reshape of `logConv` back to four axes reads.
-/
import proofs.«157949_j1700807049807_2_alg».proof.Proof.Gen.ReferenceIdeal.Read
import proofs.«157949_j1700807049807_2_alg».proof.Proof.Spec
import Idealize.ShloMosaic.Lib.ValueIdx
import Idealize.ShloMosaic.Lib.Pipeline.Value
import Idealize.ShloMosaic.PureOps.Ideal.Laws

noncomputable section

namespace Cert.ReferenceIdeal.Hand

open Cert.ReferenceIdeal Cert.ReferenceIdeal.Gen Cert.ReferenceIdeal.Read Idealize.ShloMosaic Idealize.ShloMosaic.ValueIdx Cert.LogConv

/-- The reference's weight matrix is `weights` of the parameter array: the same operations in the same order. -/
theorem weights_eq (x1 : FVec Ideal S1x1x32x32 .f32) : val_main_v7 (F := Ideal) x1 = weights x1 := rfl

/-- The reference's maximum over the last axis, at (a, b, c): the fold of `max` over that row. -/
theorem max_at (x0 : FVec Ideal S32x128x128x32 .f32) (a : Fin 32) (b c : Fin 128) :
    val_main_v2 (F := Ideal) x0 (ix3 a b c) = rowMax (fun k => x0 (ix4 a b c k)) := by
  unfold val_main_v2
  rw [Host.reduce_eq_fold_single FloatOps.maximumf x0 _ reducesTo_S32x128x128x32_S32x128x128_d3 (by decide) h_S_ (ix3 a b c)]
  have e : (x0 ∘ (by decide : S32x128x128x32.Reduces [3] S32x128x128).lift (ix3 a b c)) = fun k : Fin 32 => x0 (ix4 a b c k) :=
    funext fun k => congrArg x0 (funext fun i => Fin.ext (by match i with | ⟨0, _⟩ => rfl | ⟨1, _⟩ => rfl | ⟨2, _⟩ => rfl | ⟨3, _⟩ => rfl))
  rw [e]
  rfl

/-- The reference's result at (a, b, c, d). -/
theorem ref_apply (x0 : FVec Ideal S32x128x128x32 .f32) (x1 : FVec Ideal S1x1x32x32 .f32) (a : Fin 32) (b c : Fin 128) (d : Fin 32) :
    val_main_v11 (F := Ideal) x0 x1 (ix4 a b c d)
      = entry (fun k => x0 (ix4 a b c k)) (fun k => weights x1 (ix2 k d)) := by
  have hmax : ∀ e : Fin 32, val_main_v3 (F := Ideal) x0 (idx_main_v4 (ix4 a b c e)) = rowMax (fun k => x0 (ix4 a b c k)) := fun e => by
    rw [val_main_v3_apply]
    exact (congrArg (val_main_v2 (F := Ideal) x0) (funext fun i => Fin.ext (by match i with | ⟨0, _⟩ => rfl | ⟨1, _⟩ => rfl | ⟨2, _⟩ => rfl))).trans (max_at x0 a b c)
  rw [val_main_v11_apply, val_main_v10_apply, val_main_v9_apply, val_main_v8_apply]
  unfold entry
  refine congrArg₂ (· + ·) (hmax d) (congrArg Ideal.log (Finset.sum_congr rfl fun k _ => ?_))
  have el : lidx_main_v8 (ix4 a b c d) k = ix4 a b c k := funext fun i => Fin.ext (by match i with | ⟨0, _⟩ => rfl | ⟨1, _⟩ => rfl | ⟨2, _⟩ => rfl | ⟨3, _⟩ => rfl)
  have er : ridx_main_v8 (ix4 a b c d) k = ix2 k d := funext fun i => Fin.ext (by match i with | ⟨0, _⟩ => rfl | ⟨1, _⟩ => rfl)
  rw [el, er, val_main_v6_apply, val_main_v5_apply, val_main_v4_apply, hmax k, weights_eq]
  rfl

/-- The reference's result array is `result` of its arguments. -/
theorem ref_eq (x0 : FVec Ideal S32x128x128x32 .f32) (x1 : FVec Ideal S1x1x32x32 .f32) :
    val_main_v11 (F := Ideal) x0 x1 = result x0 x1 := by
  funext i
  obtain ⟨a, b, c, d, rfl⟩ : ∃ (a : Fin 32) (b c : Fin 128) (d : Fin 32), i = ix4 a b c d := ⟨i 0, i 1, i 2, i 3, eq_ix4 i⟩
  rw [ref_apply]
  unfold result
  have ha := a.isLt; have hb := b.isLt; have hc := c.isLt; have hd := d.isLt
  rw [shapeCast_apply _ _ (ix4 a b c d) (ix2 (⟨(a.val * 128 + b.val) * 128 + c.val, by omega⟩ : Fin 524288) d) (by
    rw [Shape.rowMajor_val_two, Shape.rowMajor_val_four]
    show ((a.val * 128 + b.val) * 128 + c.val) * 32 + d.val = ((a.val * 128 + b.val) * 128 + c.val) * 32 + d.val
    rfl)]
  show entry _ _ = entry (fun k => shapeCast Rows x0 _ (ix2 (⟨(a.val * 128 + b.val) * 128 + c.val, _⟩ : Fin 524288) k)) (fun k => weights x1 (ix2 k d))
  refine congrArg (fun r => entry r (fun k => weights x1 (ix2 k d))) (funext fun k => ?_)
  have hk := k.isLt
  exact (shapeCast_apply x0 _ (ix2 (⟨(a.val * 128 + b.val) * 128 + c.val, by omega⟩ : Fin 524288) k) (ix4 a b c k) (by
    rw [Shape.rowMajor_val_two, Shape.rowMajor_val_four]
    show ((a.val * 128 + b.val) * 128 + c.val) * 32 + k.val = ((a.val * 128 + b.val) * 128 + c.val) * 32 + k.val
    rfl)).symm

end Cert.ReferenceIdeal.Hand

end
-- ==== Proof.lean ====
/-
  The certificate's claim: the kernel program and the reference compute one function of their arguments.

  Both programs take a [32, 128, 128, 32] array of data and a [1, 1, 32, 32] parameter array.  Both build the
  weight matrix W = exp (log-softmax of the parameters over the input-channel axis), and return, for every position
  (a, b, c) and output channel d,
      max_k x[a,b,c,k] + log (∑_k exp (x[a,b,c,k] - max_k x[a,b,c,k]) · W[k,d])
  (`Cert.LogConv.result`).  The kernel does so on the data viewed as 524288 rows, 16384 rows per grid point, with the
  matrix unit taking the products (its operands narrowed to bf16, which is the identity on the extended reals); the
  reference does so with a maximum-reduce, a `dot_general` and elementwise operations on the four-axis array.  At the
  extended reals the two are the same sums of the same terms, so no finiteness of the inputs is used.

  The kernel's side is `Cert.KernelIdeal.Hand.run` (the payload at an entry, the blocks, the array, the reshape after the
  grid), the reference's `Cert.ReferenceIdeal.Hand.ref_eq` over its run read one operation at a time.  The three frames
  are the programs' runs with the results forgotten; the idealization rewrote nothing, so `preserves` is trivial.
-/
import proofs.«157949_j1700807049807_2_alg».proof.Defs
import proofs.«157949_j1700807049807_2_alg».proof.Proof.Gen.Kernel
import proofs.«157949_j1700807049807_2_alg».proof.Proof.Gen.Kernel.Skeleton
import proofs.«157949_j1700807049807_2_alg».proof.Proof.Gen.Kernel.Launch
import proofs.«157949_j1700807049807_2_alg».proof.Proof.Gen.Kernel.Points
import proofs.«157949_j1700807049807_2_alg».proof.Proof.Gen.Kernel.Frame
import proofs.«157949_j1700807049807_2_alg».proof.Proof.Gen.KernelIdeal
import proofs.«157949_j1700807049807_2_alg».proof.Proof.Gen.KernelIdeal.Skeleton
import proofs.«157949_j1700807049807_2_alg».proof.Proof.Gen.KernelIdeal.Launch
import proofs.«157949_j1700807049807_2_alg».proof.Proof.Gen.KernelIdeal.Points
import proofs.«157949_j1700807049807_2_alg».proof.Proof.Gen.KernelIdeal.Frame
import proofs.«157949_j1700807049807_2_alg».proof.Proof.Gen.ReferenceIdeal
import proofs.«157949_j1700807049807_2_alg».proof.Proof.Gen.ReferenceIdeal.Run
import proofs.«157949_j1700807049807_2_alg».proof.Proof.Gen.ReferenceIdeal.Read
import proofs.«157949_j1700807049807_2_alg».proof.Proof.Gen.Pre_finite_inputs
import proofs.«157949_j1700807049807_2_alg».proof.Proof.KernelRun
import proofs.«157949_j1700807049807_2_alg».proof.Proof.Reference
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `Cert.LogConv.result` of arguments that agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.Hand.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
